-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 60
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S50000x1, .f32⟩
  | .hbm, ⟨56, _⟩ => ⟨S50000x256, .f32⟩
  | .hbm, ⟨57, _⟩ => ⟨S50000x256, .f32⟩
  | .hbm, ⟨58, _⟩ => ⟨S1x128, .f32⟩
  | .hbm, ⟨59, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The kernel's program run with its result named: every weakly fair execution from a memory with zero counters
  terminates without a fault, the argument arrays end as launched, and the result array ends holding what the
  second region's write-backs leave of it — the second region's proof data, entered from the contents the first
  region and the host operations between them produce.
-/
import proofs.«176526_j19155554140462_1_alg».proof.Proof.Gen.KernelIdeal.Frame

set_option maxRecDepth 16384

noncomputable section

namespace Cert.KernelIdeal.RunVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The program's segments run from the launch memory; the last thread state holds every unscoped buffer at the
    last boundary's contents, where the result array is the second region's final array and each argument reads
    back to its launch contents. -/
theorem run_named : θ_run defs (onTc (τ := τ) (main (F := F))) ⟨m, fun _ => 0, ρ⟩ (fun r => ∀ c : Dev nD,
      r.2.mem ((c.tc : Thread nD τ).loc main_v41) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunVal

end
-- ==== Proof.Spec.lean ====
/-
  The mathematics both programs compute, stated once over plain index types.

  A SAGEConv layer with mean aggregation, for node features x : [N, K], takes the mean of the features over each
  node's in-neighbours and combines it with the node's own features: entry (r, c) of the layer's result is

      post ( Σ_k mean[r, k] · W_l[k, c]  +  Σ_k x[r, k] · W_r[k, c]  +  b[c] ),

  where post is the rectifier for the hidden layer and the identity for the output layer. The neighbour mean
  divides an aggregated sum by max(count, 1); one program multiplies by the reciprocal 1 / max(count, 1)
  instead, and on the extended reals the two agree whenever the divisor is not zero (it is at least one).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The rectifier: the maximum with the value of the zero word. -/
def relu (v : EReal) : EReal := max v (Ideal.ofBits .f32 0x00000000#32)

/-- One layer's combine, entry by entry: the neighbour mean through `wl`, the node's own row through `wr`, the
    bias row `b` (kept as a [1, M] array), then `post`. -/
def lin {N K M : Nat} (post : EReal → EReal)
    (mean x : (⟨2, ![N, K]⟩ : Shape).Idx → EReal) (wl wr : (⟨2, ![K, M]⟩ : Shape).Idx → EReal)
    (b : (⟨2, ![1, M]⟩ : Shape).Idx → EReal) : (⟨2, ![N, M]⟩ : Shape).Idx → EReal :=
  fun i => post ((∑ k : Fin K, mean (ix2 (i 0) k) * wl (ix2 k (i 1)) + ∑ k : Fin K, x (ix2 (i 0) k) * wr (ix2 k (i 1)))
    + b (ix2 0 (i 1)))

/-- The layer at explicit coordinates. -/
theorem lin_ix2 {N K M : Nat} (post : EReal → EReal)
    (mean x : (⟨2, ![N, K]⟩ : Shape).Idx → EReal) (wl wr : (⟨2, ![K, M]⟩ : Shape).Idx → EReal)
    (b : (⟨2, ![1, M]⟩ : Shape).Idx → EReal) (r : Fin N) (c : Fin M) :
    lin post mean x wl wr b (ix2 r c)
      = post ((∑ k : Fin K, mean (ix2 r k) * wl (ix2 k c) + ∑ k : Fin K, x (ix2 r k) * wr (ix2 k c)) + b (ix2 0 c)) := rfl

/-- Multiplying by the reciprocal of a nonzero divisor is dividing by it, on all of the extended reals: the
    quotient by `c ≠ 0` is the product with `c⁻¹`, and `1 · c⁻¹ = c⁻¹`. -/
theorem mul_one_div (a c : EReal) (hc : c ≠ 0) : a * Ideal.div 1 c = Ideal.div a c := by
  unfold Ideal.div
  rw [if_neg hc, if_neg hc, one_mul]

/-- The value of the word of 1.0 is the extended real one. -/
theorem ofBits_one : Ideal.ofBits .f32 0x3F800000#32 = 1 := by
  simp [Ideal.ofBits, Ideal.ieee, -EReal.coe_mul]
  norm_num

/-- A maximum with one is not zero. -/
theorem max_one_ne_zero (a : EReal) : max a (Ideal.ofBits .f32 0x3F800000#32) ≠ 0 := by
  rw [ofBits_one]
  intro h
  have h1 : (1 : EReal) ≤ max a 1 := le_max_right a 1
  rw [h] at h1
  exact absurd h1 (by norm_num)

end Cert.Sage

end
-- ==== Proof.Region0.lean ====
/-
  Region 0 of the kernel's program, read as mathematics.

  The region runs over 25 grid points. Point t stages rows [2000·t, 2000·t + 2000) of the two [50000, 128] operands, the
  two [128, 256] weight matrices and the [1, 256] bias row whole, and writes back rows [2000·t, 2000·t + 2000) of the
  [50000, 256] result. Its body computes, at entry (p, q) of the result block,

      max ( Σ_k a[p, k] · W_l[k, q]  +  Σ_k x[p, k] · W_r[k, q]  +  b[0, q] ,  0 ),

  the two contractions into zero accumulators (the rounding of the operands to a narrower format is the identity on the
  extended reals), their sum, the bias row broadcast over the rows, and the rectifier.

  Proved here: the body's arithmetic at an entry (`pay_ix2`); each staged block as rows of its array (`blk0_read` …
  `blk5_read`, from the index maps decided once over the grid, `idx_facts`); what a point writes back is its block of
  the layer's result `Cert.Sage.lin` of the arrays as the region finds them (`flushed_eq`); the 25 blocks cover the
  result array, row r in the block of point r / 2000 (`cover`); so the array ends holding the layer's result (`final0`).
-/
import proofs.«176526_j19155554140462_1_alg».proof.Proof.Gen.KernelIdeal.Frame
import proofs.«176526_j19155554140462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal
open Cert.KernelIdeal Cert.KernelIdeal.Gen Idealize.ShloMosaic Idealize.ShloMosaic.TcCoe Idealize.SL.Sem Idealize.ShloMosaic.ValueIdx

/-- The left operand's row coordinate at a result index is the result's row. -/
theorem lhs_row (i : S2000x256.Idx) (r : dot_S2000x128_S128x256_S2000x256_1_0_0_1_n_n.contr.Idx) :
    (dot_S2000x128_S128x256_S2000x256_1_0_0_1_n_n.lhsIdx i r 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The left operand's column coordinate is the contraction coordinate. -/
theorem lhs_col (i : S2000x256.Idx) (r : dot_S2000x128_S128x256_S2000x256_1_0_0_1_n_n.contr.Idx) :
    (dot_S2000x128_S128x256_S2000x256_1_0_0_1_n_n.lhsIdx i r 1).val = (r ⟨0, by decide⟩).val :=
  dot_S2000x128_S128x256_S2000x256_1_0_0_1_n_n.lhsIdx_val_of_single rfl i r
/-- The right operand's row coordinate is the contraction coordinate. -/
theorem rhs_row (i : S2000x256.Idx) (r : dot_S2000x128_S128x256_S2000x256_1_0_0_1_n_n.contr.Idx) :
    (dot_S2000x128_S128x256_S2000x256_1_0_0_1_n_n.rhsIdx i r 0).val = (r ⟨0, by decide⟩).val :=
  dot_S2000x128_S128x256_S2000x256_1_0_0_1_n_n.rhsIdx_val_of_single rfl i r
/-- The right operand's column coordinate at a result index is the result's column. -/
theorem rhs_col (i : S2000x256.Idx) (r : dot_S2000x128_S128x256_S2000x256_1_0_0_1_n_n.contr.Idx) :
    (dot_S2000x128_S128x256_S2000x256_1_0_0_1_n_n.rhsIdx i r 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- One product of the kernel's contraction read at entry (p, q): the sum over the 128 shared coordinates. -/
theorem matmul_ix2 (a : FVec Ideal S2000x128 .bf16) (b : FVec Ideal S128x256 .bf16) (p : Fin 2000) (q : Fin 256) :
    matmul dot_S2000x128_S128x256_S2000x256_1_0_0_1_n_n none a b (constant (F := Ideal) S2000x256 .f32 0x00000000#32) (ix2 p q)
      = ∑ k : Fin 128, a (ix2 p k) * b (ix2 k q) := by
  refine (Ideal.matmul_constant_zero_apply dot_S2000x128_S128x256_S2000x256_1_0_0_1_n_n none a b (ix2 p q)).trans ?_
  rw [← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun d => Fin.ext (by
    match d with
    | ⟨0, _⟩ => exact lhs_row _ _
    | ⟨1, _⟩ => exact (lhs_col _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun d => Fin.ext (by
    match d with
    | ⟨0, _⟩ => exact (rhs_row _ _).trans hk
    | ⟨1, _⟩ => exact rhs_col _ _)
  rw [el, er]

/-- The body's arithmetic at entry (p, q) of its result block. -/
theorem pay_ix2 (x0 x1 : FVec Ideal S2000x128 .f32) (w2 w4 : FVec Ideal S128x256 .f32) (x3 : FVec Ideal S1x256 .f32) (p : Fin 2000) (q : Fin 256) :
    k0_pay1 (F := Ideal) x0 x1 w2 w4 x3 (ix2 p q)
      = Cert.Sage.relu ((∑ k : Fin 128, x0 (ix2 p k) * w2 (ix2 k q) + ∑ k : Fin 128, x1 (ix2 p k) * w4 (ix2 k q)) + x3 (ix2 0 q)) := by
  unfold k0_pay1
  show max ((matmul dot_S2000x128_S128x256_S2000x256_1_0_0_1_n_n none _ _ (constant (F := Ideal) S2000x256 .f32 0x00000000#32) (ix2 p q)
      + matmul dot_S2000x128_S128x256_S2000x256_1_0_0_1_n_n none _ _ (constant (F := Ideal) S2000x256 .f32 0x00000000#32) (ix2 p q))
      + broadcastTo S2000x256 (shapeCast S1x256 x3 shapeCasts_S1x256_S1x256) broadcasts_S1x256_S2000x256 (ix2 p q)) (Ideal.ofBits .f32 0x00000000#32) = _
  rw [matmul_ix2, matmul_ix2, broadcastTo_1b_ab_apply, shapeCast_self, shapeCast_self]
  rfl

theorem hz : (![0, 0] : Fin 2 → Nat) = fun _ => 0 := funext fun a => by fin_cases a <;> rfl

/-- The printed index maps, decided once over the 25 grid points: the two row-tiled operands and the result sit at block
    (t, 0); the weight matrices and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the first operand's block at point t is row 2000·t + p of its array. -/
theorem blk0_read (A : S50000x128.Idx → EReal) (t : Fin cfg0.N) (p : Fin 2000) (k : Fin 128) (r : Fin 50000)
    (hr : r.val = t.val * 2000 + p.val) :
    ((cfg0.win 0).blk t).view.read (Elt Ideal) A (ix2 p k) = A (ix2 r k) := by
  obtain ⟨e0, e1, -⟩ := idx_facts t
  show A (((cfg0.win 0).blk t).view.emb (ix2 p k)) = A (ix2 r k)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Row p of the second operand's block at point t is row 2000·t + p of its array. -/
theorem blk1_read (A : S50000x128.Idx → EReal) (t : Fin cfg0.N) (p : Fin 2000) (k : Fin 128) (r : Fin 50000)
    (hr : r.val = t.val * 2000 + p.val) :
    ((cfg0.win 1).blk t).view.read (Elt Ideal) A (ix2 p k) = A (ix2 r k) := by
  obtain ⟨-, -, e0, e1, -⟩ := idx_facts t
  show A (((cfg0.win 1).blk t).view.emb (ix2 p k)) = A (ix2 r k)
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * k.val = k.val; omega

/-- The first weight matrix is staged whole at every point. -/
theorem blk2_read (A : S128x256.Idx → EReal) (t : Fin cfg0.N) (k : Fin 128) (q : Fin 256) :
    ((cfg0.win 2).blk t).view.read (Elt Ideal) A (ix2 k q) = A (ix2 k q) := by
  obtain ⟨-, -, -, -, e0, e1, -⟩ := idx_facts t
  show A (((cfg0.win 2).blk t).view.emb (ix2 k q)) = A (ix2 k q)
  refine congrArg A (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- The bias row is staged whole at every point. -/
theorem blk3_read (A : S1x256.Idx → EReal) (t : Fin cfg0.N) (q : Fin 256) :
    ((cfg0.win 3).blk t).view.read (Elt Ideal) A (ix2 0 q) = A (ix2 0 q) := by
  obtain ⟨-, -, -, -, -, -, e0, e1, -⟩ := idx_facts t
  show A (((cfg0.win 3).blk t).view.emb (ix2 0 q)) = A (ix2 0 q)
  refine congrArg A (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-- The second weight matrix is staged whole at every point. -/
theorem blk4_read (A : S128x256.Idx → EReal) (t : Fin cfg0.N) (k : Fin 128) (q : Fin 256) :
    ((cfg0.win 4).blk t).view.read (Elt Ideal) A (ix2 k q) = A (ix2 k q) := by
  obtain ⟨-, -, -, -, -, -, -, -, e0, e1, -⟩ := idx_facts t
  show A (((cfg0.win 4).blk t).view.emb (ix2 k q)) = A (ix2 k q)
  refine congrArg A (funext fun a => Fin.ext ?_)
  match a with
  | ⟨0, _⟩ => show win0_4.index t (0 : Fin 2) * 128 + 1 * k.val = k.val; omega
  | ⟨1, _⟩ => show win0_4.index t (1 : Fin 2) * 256 + 1 * q.val = q.val; omega

/-- Row p of the result's block at point t is row 2000·t + p of the result array. -/
theorem blk5_read (G : S50000x256.Idx → EReal) (t : Fin cfg0.N) (p : Fin 2000) (q : Fin 256) (r : Fin 50000)
    (hr : r.val = t.val * 2000 + p.val) :
    ((cfg0.win 5).blk t).view.read (Elt Ideal) G (ix2 p q) = G (ix2 r q) := by
  obtain ⟨-, -, -, -, -, -, -, -, -, -, e0, e1⟩ := idx_facts t
  show G (((cfg0.win 5).blk t).view.emb (ix2 p q)) = G (ix2 r q)
  refine congrArg G (funext fun a => Fin.ext ?_)
  match a with
  | ⟨0, _⟩ => show win0_5.index t (0 : Fin 2) * 2000 + 1 * p.val = r.val; omega
  | ⟨1, _⟩ => show win0_5.index t (1 : Fin 2) * 256 + 1 * q.val = q.val; omega

/-- WHAT POINT t WRITES BACK is block t of the layer's result computed from the arrays as the region finds them. -/
theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal)
      (Cert.Sage.lin (N := 50000) (K := 128) (M := 256) Cert.Sage.relu (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  have hN : grid0.N = 25 := N_0
  have ht : t.val < grid0.N := t.isLt
  have hp : t.val * 2000 + p.val < 50000 := by have := p.isLt; omega
  refine (pay_ix2 (iblk0 V c 0 t) (iblk0 V c 1 t) (iblk0 V c 2 t) (iblk0 V c 4 t) (iblk0 V c 3 t) p q).trans ?_
  refine Eq.trans ?_ (blk5_read (Cert.Sage.lin (N := 50000) (K := 128) (M := 256) Cert.Sage.relu (V c main_v24) (V c main_arg0) (V c main_arg2) (V c main_arg4) (V c main_v25)) t p q ⟨_, hp⟩ rfl).symm
  rw [Cert.Sage.lin_ix2]
  refine congrArg Cert.Sage.relu ?_
  refine congrArg₂ (· + ·) (congrArg₂ (· + ·) (Finset.sum_congr rfl fun k _ => ?_) (Finset.sum_congr rfl fun k _ => ?_)) ?_
  · exact congrArg₂ (· * ·) (blk0_read (V c main_v24) t p k ⟨_, hp⟩ rfl) (blk2_read (V c main_arg2) t k q)
  · exact congrArg₂ (· * ·) (blk1_read (V c main_arg0) t p k ⟨_, hp⟩ rfl) (blk4_read (V c main_arg4) t k q)
  · exact blk3_read (V c main_v25) t q

/-- An index of the result array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- THE COVER: row r of the result array lies in the block of the point r / 2000. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : grid0.N = 25 := N_0
  have hlt : (i 0).val / 2000 < grid0.N := by rw [hN]; omega
  obtain ⟨-, -, -, -, -, -, -, -, -, -, e0, e1⟩ := idx_facts ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ (0 : Fin 2) * 2000 ≤ (i 0).val ∧ (i 0).val < win0_5.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ (1 : Fin 2) * 256 ≤ (i 1).val ∧ (i 1).val < win0_5.index ⟨(i 0).val / 2000, hlt⟩ (1 : Fin 2) * 256 + 256
    rw [e1]
    omega

/-- THE RESULT ARRAY after the region: the layer's result, entry by entry, of the arrays as the region finds them. -/
theorem final0 (V : (c : Dev nD) → (b : Ref sig .tc) → Buf (Elt Ideal) ((c : Thread nD τ).loc b)) (c : Dev nD) :
    (dat0 (F := Ideal) V c).arrAt 5 cfg0.N
      = Cert.Sage.lin (N := 50000) (K := 128) (M := 256) Cert.Sage.relu (V c main_v24) (V c main_arg0) (V c main_arg2) (V c main_arg4) (V c main_v25) :=
  (dat0 (F := Ideal) V c).arrAt_eq_of_cover 5 _ (fun t _ => flushed_eq V c t) cover

end Cert.KernelIdeal.RegionVal

end
-- ==== Proof.Region1.lean ====
/-
  Region 1 of the program is the output layer's combine on a grid of 25 points. Point t stages rows
  2000·t … 2000·t + 1999 of the two [50000, 256] operands (the neighbour mean and the node's own features), the two
  whole [256, 128] weight matrices and the [1, 128] bias row, and writes back rows 2000·t … 2000·t + 1999 of the
  [50000, 128] result. The body's arithmetic on its blocks is, entry (p, q),

      Σ_k a[p, k] · W_l[k, q]  +  Σ_k x[p, k] · W_r[k, q]  +  b[0, q]

  (two products into zero accumulators, added, plus the broadcast bias row; the narrowing of the operands to bf16 is
  the identity on the extended reals). Since row p of a block at point t is row 2000·t + p of its array, what point t
  writes back is rows 2000·t … of the layer's result as ONE function of the arrays the region finds; the 25 blocks
  tile the 50000 rows, so after the region the result array is that function.
-/
import proofs.«176526_j19155554140462_1_alg».proof.Proof.Gen.KernelIdeal.Frame
import proofs.«176526_j19155554140462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal
open Cert.KernelIdeal Cert.KernelIdeal.Gen Idealize.ShloMosaic Idealize.ShloMosaic.TcCoe Idealize.SL.Sem Idealize.ShloMosaic.ValueIdx

namespace Region1

/-! ## The body's arithmetic at one entry -/

/-- The left operand of the product is read at the output's row … -/
theorem lhs_row (i : S2000x128.Idx) (κ : dot_S2000x256_S256x128_S2000x128_1_0_0_1_n_n.contr.Idx) :
    (dot_S2000x256_S256x128_S2000x128_1_0_0_1_n_n.lhsIdx i κ 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and the contraction position; -/
theorem lhs_col (i : S2000x128.Idx) (κ : dot_S2000x256_S256x128_S2000x128_1_0_0_1_n_n.contr.Idx) :
    (dot_S2000x256_S256x128_S2000x128_1_0_0_1_n_n.lhsIdx i κ 1).val = (κ ⟨0, by decide⟩).val :=
  dot_S2000x256_S256x128_S2000x128_1_0_0_1_n_n.lhsIdx_val_of_single rfl i κ
/-- the right operand at the contraction position … -/
theorem rhs_row (i : S2000x128.Idx) (κ : dot_S2000x256_S256x128_S2000x128_1_0_0_1_n_n.contr.Idx) :
    (dot_S2000x256_S256x128_S2000x128_1_0_0_1_n_n.rhsIdx i κ 0).val = (κ ⟨0, by decide⟩).val :=
  dot_S2000x256_S256x128_S2000x128_1_0_0_1_n_n.rhsIdx_val_of_single rfl i κ
/-- … and the output's column. -/
theorem rhs_col (i : S2000x128.Idx) (κ : dot_S2000x256_S256x128_S2000x128_1_0_0_1_n_n.contr.Idx) :
    (dot_S2000x256_S256x128_S2000x128_1_0_0_1_n_n.rhsIdx i κ 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000, 256] × [256, 128] product into the zero accumulator, at entry (p, q): the sum over the 256 contraction
    positions of the row's entries times the column's. -/
theorem mm_apply (a : FVec Ideal S2000x256 .bf16) (b : FVec Ideal S256x128 .bf16) (p : Fin 2000) (q : Fin 128) :
    matmul (F := Ideal) dot_S2000x256_S256x128_S2000x128_1_0_0_1_n_n none a b (constant (F := Ideal) S2000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_row _ _).trans hk
    | ⟨1, _⟩ => exact rhs_col _ _)
  rw [el, er]

/-- THE BODY'S RESULT AT ENTRY (p, q): the two products' sums over the contraction (the narrowing to bf16 is the identity on
    the extended reals, and so are the casts to the same shape), added, plus the bias row's entry at q. -/
theorem pay_apply (x0 x1 : FVec Ideal S2000x256 .f32) (w2 w4 : FVec Ideal S256x128 .f32) (x3 : FVec Ideal S1x128 .f32) (p : Fin 2000) (q : Fin 128) :
    k1_pay1 (F := Ideal) x0 x1 w2 w4 x3 (ix2 p q)
      = ((∑ k : Fin 256, x0 (ix2 p k) * w2 (ix2 k q) + ∑ k : Fin 256, x1 (ix2 p k) * w4 (ix2 k q)) + x3 (ix2 0 q)) := by
  unfold k1_pay1
  simp only [shapeCast_self]
  exact congrArg₂ (· + ·) (congrArg₂ (· + ·) (mm_apply _ _ p q) (mm_apply _ _ p q)) (broadcastTo_1b_ab_apply _ _ p q)

/-! ## The windows' blocks as rows of their arrays -/

theorem hz : (![0, 0] : Fin 2 → Nat) = fun _ => 0 := funext fun a => by fin_cases a <;> rfl

/-- The printed index maps, decided over the 25 grid points: the two row-tiled operands and the result are at block
    (t, 0) at point t; the two weight matrices and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the first operand's block at point t is entry (2000·t + p, k) of its array. -/
theorem read_blk0 (A : (⟨S50000x256, .f32⟩ : BufTy).Contents (Elt Ideal)) (t : Fin cfg1.N) (p : Fin 2000) (k : Fin 256)
    (r : Fin 50000) (hr : r.val = 2000 * t.val + p.val) :
    (((cfg1.win 0).blk t).view.read (Elt Ideal) A : S2000x256.Idx → EReal) (ix2 p k) = A (ix2 r k) := by
  obtain ⟨e0, e1, -⟩ := idx_facts t
  rw [View.read_apply]
  show A _ = A _
  congr 1
  funext a
  apply Fin.ext
  match a with
  | ⟨0, _⟩ => show win1_0.index t (0 : Fin 2) * 2000 + 1 * p.val = r.val; omega
  | ⟨1, _⟩ => show win1_0.index t (1 : Fin 2) * 256 + 1 * k.val = k.val; omega

/-- Entry (p, k) of the second operand's block at point t is entry (2000·t + p, k) of its array. -/
theorem read_blk1 (A : (⟨S50000x256, .f32⟩ : BufTy).Contents (Elt Ideal)) (t : Fin cfg1.N) (p : Fin 2000) (k : Fin 256)
    (r : Fin 50000) (hr : r.val = 2000 * t.val + p.val) :
    (((cfg1.win 1).blk t).view.read (Elt Ideal) A : S2000x256.Idx → EReal) (ix2 p k) = A (ix2 r k) := by
  obtain ⟨-, -, e0, e1, -⟩ := idx_facts t
  rw [View.read_apply]
  show A _ = A _
  congr 1
  funext a
  apply Fin.ext
  match a with
  | ⟨0, _⟩ => show win1_1.index t (0 : Fin 2) * 2000 + 1 * p.val = r.val; omega
  | ⟨1, _⟩ => show win1_1.index t (1 : Fin 2) * 256 + 1 * k.val = k.val; omega

/-- The first weight matrix's block at every point is the whole matrix. -/
theorem read_blk2 (A : (⟨S256x128, .f32⟩ : BufTy).Contents (Elt Ideal)) (t : Fin cfg1.N) (k : Fin 256) (q : Fin 128) :
    (((cfg1.win 2).blk t).view.read (Elt Ideal) A : S256x128.Idx → EReal) (ix2 k q) = A (ix2 k q) := by
  obtain ⟨-, -, -, -, e0, e1, -⟩ := idx_facts t
  rw [View.read_apply]
  show A _ = A _
  congr 1
  funext a
  apply Fin.ext
  match a with
  | ⟨0, _⟩ => show win1_2.index t (0 : Fin 2) * 256 + 1 * k.val = k.val; omega
  | ⟨1, _⟩ => show win1_2.index t (1 : Fin 2) * 128 + 1 * q.val = q.val; omega

/-- The bias row's block at every point is the whole row. -/
theorem read_blk3 (A : (⟨S1x128, .f32⟩ : BufTy).Contents (Elt Ideal)) (t : Fin cfg1.N) (z : Fin 1) (q : Fin 128) :
    (((cfg1.win 3).blk t).view.read (Elt Ideal) A : S1x128.Idx → EReal) (ix2 z q) = A (ix2 z q) := by
  obtain ⟨-, -, -, -, -, -, e0, e1, -⟩ := idx_facts t
  rw [View.read_apply]
  show A _ = A _
  congr 1
  funext a
  apply Fin.ext
  match a with
  | ⟨0, _⟩ => show win1_3.index t (0 : Fin 2) * 1 + 1 * z.val = z.val; omega
  | ⟨1, _⟩ => show win1_3.index t (1 : Fin 2) * 128 + 1 * q.val = q.val; omega

/-- The second weight matrix's block at every point is the whole matrix. -/
theorem read_blk4 (A : (⟨S256x128, .f32⟩ : BufTy).Contents (Elt Ideal)) (t : Fin cfg1.N) (k : Fin 256) (q : Fin 128) :
    (((cfg1.win 4).blk t).view.read (Elt Ideal) A : S256x128.Idx → EReal) (ix2 k q) = A (ix2 k q) := by
  obtain ⟨-, -, -, -, -, -, -, -, e0, e1, -⟩ := idx_facts t
  rw [View.read_apply]
  show A _ = A _
  congr 1
  funext a
  apply Fin.ext
  match a with
  | ⟨0, _⟩ => show win1_4.index t (0 : Fin 2) * 256 + 1 * k.val = k.val; omega
  | ⟨1, _⟩ => show win1_4.index t (1 : Fin 2) * 128 + 1 * q.val = q.val; omega

/-- Entry (p, q) of the result's block at point t is entry (2000·t + p, q) of its array. -/
theorem read_blk5 (A : (⟨S50000x128, .f32⟩ : BufTy).Contents (Elt Ideal)) (t : Fin cfg1.N) (p : Fin 2000) (q : Fin 128)
    (r : Fin 50000) (hr : r.val = 2000 * t.val + p.val) :
    (((cfg1.win 5).blk t).view.read (Elt Ideal) A : S2000x128.Idx → EReal) (ix2 p q) = A (ix2 r q) := by
  obtain ⟨-, -, -, -, -, -, -, -, -, -, e0, e1⟩ := idx_facts t
  rw [View.read_apply]
  show A _ = A _
  congr 1
  funext a
  apply Fin.ext
  match a with
  | ⟨0, _⟩ => show win1_5.index t (0 : Fin 2) * 2000 + 1 * p.val = r.val; omega
  | ⟨1, _⟩ => show win1_5.index t (1 : Fin 2) * 128 + 1 * q.val = q.val; omega

/-- A staged block is not cut: read at (p, q) it is the buffer there. -/
theorem cut5_apply (X : Vec Ideal S2000x128 .f32) (t : Fin cfg1.N) (p : Fin 2000) (q : Fin 128) :
    ((cfg1.win 5).cut (grid1.coords t) X : S2000x128.Idx → EReal) (ix2 p q) = X (ix2 p q) := by
  show X _ = X _
  congr 1

/-- Rows of the layer's result from blocks: when the body's five blocks are, entry by entry, row r of the two operands, the
    weight matrices and the bias row, the body's arithmetic at (p, q) is the layer's result at (r, q). -/
theorem rows_eq (x0 x1 : S2000x256.Idx → EReal) (w2 w4 : S256x128.Idx → EReal) (x3 : S1x128.Idx → EReal)
    (A0 A1 : S50000x256.Idx → EReal) (B2 B4 : S256x128.Idx → EReal) (B3 : S1x128.Idx → EReal)
    (p : Fin 2000) (q : Fin 128) (r : Fin 50000)
    (h0 : ∀ k : Fin 256, x0 (ix2 p k) = A0 (ix2 r k)) (h1 : ∀ k : Fin 256, x1 (ix2 p k) = A1 (ix2 r k))
    (h2 : ∀ k : Fin 256, w2 (ix2 k q) = B2 (ix2 k q)) (h4 : ∀ k : Fin 256, w4 (ix2 k q) = B4 (ix2 k q))
    (h3 : x3 (ix2 0 q) = B3 (ix2 0 q)) :
    ((∑ k : Fin 256, x0 (ix2 p k) * w2 (ix2 k q) + ∑ k : Fin 256, x1 (ix2 p k) * w4 (ix2 k q)) + x3 (ix2 0 q))
      = Cert.Sage.lin (N := 50000) (K := 256) (M := 128) id A0 A1 B2 B4 B3 (ix2 r q) := by
  rw [Cert.Sage.lin_ix2, h3]
  simp only [h0, h1, h2, h4]
  rfl

section
variable (V : (c : Dev nD) → (b : Ref sig .tc) → Buf (Elt Ideal) ((c : Thread nD τ).loc b)) (c : Dev nD)

/-- The blocks the body reads at point t, entry by entry, as entries of the arrays the region finds. -/
theorem iblk_0 (t : Fin cfg1.N) (p : Fin 2000) (k : Fin 256) (r : Fin 50000) (hr : r.val = 2000 * t.val + p.val) :
    (iblk1 (F := Ideal) V c 0 t : S2000x256.Idx → EReal) (ix2 p k) = (V c main_v39 : S50000x256.Idx → EReal) (ix2 r k) := by
  unfold iblk1
  exact read_blk0 (V c main_v39) t p k r hr
theorem iblk_1 (t : Fin cfg1.N) (p : Fin 2000) (k : Fin 256) (r : Fin 50000) (hr : r.val = 2000 * t.val + p.val) :
    (iblk1 (F := Ideal) V c 1 t : S2000x256.Idx → EReal) (ix2 p k) = (V c main_v26 : S50000x256.Idx → EReal) (ix2 r k) := by
  unfold iblk1
  exact read_blk1 (V c main_v26) t p k r hr
theorem iblk_2 (t : Fin cfg1.N) (k : Fin 256) (q : Fin 128) :
    (iblk1 (F := Ideal) V c 2 t : S256x128.Idx → EReal) (ix2 k q) = (V c main_arg5 : S256x128.Idx → EReal) (ix2 k q) := by
  unfold iblk1
  exact read_blk2 (V c main_arg5) t k q
theorem iblk_3 (t : Fin cfg1.N) (z : Fin 1) (q : Fin 128) :
    (iblk1 (F := Ideal) V c 3 t : S1x128.Idx → EReal) (ix2 z q) = (V c main_v40 : S1x128.Idx → EReal) (ix2 z q) := by
  unfold iblk1
  exact read_blk3 (V c main_v40) t z q
theorem iblk_4 (t : Fin cfg1.N) (k : Fin 256) (q : Fin 128) :
    (iblk1 (F := Ideal) V c 4 t : S256x128.Idx → EReal) (ix2 k q) = (V c main_arg7 : S256x128.Idx → EReal) (ix2 k q) := by
  unfold iblk1
  exact read_blk4 (V c main_arg7) t k q

/-! ## What a point writes back, and the whole array -/

/-- The layer's result as one function of the arrays the region finds. -/
abbrev G : (⟨S50000x128, .f32⟩ : BufTy).Contents (Elt Ideal) :=
  Cert.Sage.lin (N := 50000) (K := 256) (M := 128) id (V c main_v39) (V c main_v26) (V c main_arg5) (V c main_arg7) (V c main_v40)

/-- WHAT POINT t WRITES BACK is rows 2000·t … 2000·t + 1999 of the layer's result. -/
theorem flushed_eq (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hr : (⟨2000 * t.val + p.val, by have := p.isLt; omega⟩ : Fin 50000).val = 2000 * t.val + p.val := rfl
  refine (cut5_apply _ t p q).trans ?_
  refine (pay_apply _ _ _ _ _ p q).trans ?_
  refine (rows_eq _ _ _ _ _ (V c main_v39) (V c main_v26) (V c main_arg5) (V c main_arg7) (V c main_v40) p q _
      (fun k => iblk_0 V c t p k _ hr) (fun k => iblk_1 V c t p k _ hr) (fun k => iblk_2 V c t k q) (fun k => iblk_4 V c t k q)
      (iblk_3 V c t 0 q)).trans ?_
  exact (read_blk5 (G V c) t p q _ hr).symm
end

/-! ## The cover -/

/-- An index of the result array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every row r of the result lies in the block of the point r / 2000, which writes back: the 25 blocks of 2000 rows
    tile the 50000 rows. -/
theorem cover (i : S50000x128.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

end Region1

/-- THE RESULT ARRAY after region 1: the layer's combine, with the identity after it, of the arrays the region finds —
    entry (r, c) is Σ_k mean[r, k] · W_l[k, c] + Σ_k x[r, k] · W_r[k, c] + b[c]. -/
theorem final1 (V : (c : Dev nD) → (b : Ref sig .tc) → Buf (Elt Ideal) ((c : Thread nD τ).loc b)) (c : Dev nD) :
    (dat1 (F := Ideal) V c).arrAt 5 cfg1.N
      = Cert.Sage.lin (N := 50000) (K := 256) (M := 128) id (V c main_v39) (V c main_v26) (V c main_arg5) (V c main_arg7) (V c main_v40) :=
  (dat1 (F := Ideal) V c).arrAt_eq_of_cover 5 (Region1.G V c) (fun t _ => Region1.flushed_eq V c t) Region1.cover

end Cert.KernelIdeal.RegionVal

end
-- ==== Proof.KHostDefs.lean ====
/-
  The host side of the kernel's program as whole-array functions of the arguments: the edge lists read off the
  edge array, the reciprocal of each node's clamped in-degree, and the neighbour mean of a feature array
  (gather the source rows, add them into their destination rows, scale each row by the reciprocal).
-/
import proofs.«176526_j19155554140462_1_alg».proof.Proof.Gen.KernelIdeal

noncomputable section

namespace Cert.KernelIdeal.HostVal

open Cert.KernelIdeal Cert.KernelIdeal.Gen Idealize.ShloMosaic

variable {F : FTy → Type} [FloatOps F]

/-- Row 0 of the edge array as a vector: each edge's source node. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array as a vector: each edge's destination node. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's start indices: a negative source index counted from the end, as a column. -/
def srcIdx (e : (⟨S2x800000, .i32⟩ : BufTy).Contents (Elt F)) : (⟨S800000x1, .i32⟩ : BufTy).Contents (Elt F) :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The scatter's indices: the destinations as a column. -/
def dstIdx (e : (⟨S2x800000, .i32⟩ : BufTy).Contents (Elt F)) : (⟨S800000x1, .i32⟩ : BufTy).Contents (Elt F) :=
  broadcastInDim S800000x1 ![0] bcast_S800000_S800000x1_0 (dstRow e)

/-- Each node's in-degree, clamped below by one. -/
def cnt (e : (⟨S2x800000, .i32⟩ : BufTy).Contents (Elt F)) : (⟨S50000, .f32⟩ : BufTy).Contents (Elt F) :=
  maximumf (Host.scatterAdd scatter_S50000_S800000x1_S800000_n_0_0_1 (broadcastInDim S50000 ![] bcast_S_S50000 (constant S_ .f32 0x00000000#32))
      (dstIdx e) (broadcastInDim S800000 ![] bcast_S_S800000 (constant S_ .f32 0x3F800000#32)))
    (broadcastInDim S50000 ![] bcast_S_S50000 (constant S_ .f32 0x3F800000#32))

/-- Its reciprocal. -/
def invCnt (e : (⟨S2x800000, .i32⟩ : BufTy).Contents (Elt F)) : (⟨S50000, .f32⟩ : BufTy).Contents (Elt F) :=
  Host.divf (broadcastInDim S50000 ![] bcast_S_S50000 (constant S_ .f32 0x3F800000#32)) (cnt e)

/-- The sum of the source rows into each destination row, 128 features wide. -/
def agg128 (x : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (dstIdx e) (Host.gather gather_S50000x128_S800000x1_S800000x128_1_0_n_n_0_1_1128 x (srcIdx e))

/-- The same, 256 features wide. -/
def agg256 (h : (⟨S50000x256, .f32⟩ : BufTy).Contents (Elt F)) (e : (⟨S2x800000, .i32⟩ : BufTy).Contents (Elt F)) :
    (⟨S50000x256, .f32⟩ : BufTy).Contents (Elt F) :=
  Host.scatterAdd scatter_S50000x256_S800000x1_S800000x256_1_0_0_1 (broadcastInDim S50000x256 ![] bcast_S_S50000x256 (constant S_ .f32 0x00000000#32))
    (dstIdx e) (Host.gather gather_S50000x256_S800000x1_S800000x256_1_0_n_n_0_1_1256 h (srcIdx e))

/-- The neighbour mean of the input features: the aggregated rows times the reciprocal in-degree. -/
def mean128 (x : (⟨S50000x128, .f32⟩ : BufTy).Contents (Elt F)) (e : (⟨S2x800000, .i32⟩ : BufTy).Contents (Elt F)) :
    (⟨S50000x128, .f32⟩ : BufTy).Contents (Elt F) :=
  mulf (agg128 x e) (broadcastInDim S50000x128 ![0, 1] bcast_S50000x1_S50000x128_0_1 (broadcastInDim S50000x1 ![0] bcast_S50000_S50000x1_0 (invCnt e)))

/-- The neighbour mean of the hidden features. -/
def mean256 (h : (⟨S50000x256, .f32⟩ : BufTy).Contents (Elt F)) (e : (⟨S2x800000, .i32⟩ : BufTy).Contents (Elt F)) :
    (⟨S50000x256, .f32⟩ : BufTy).Contents (Elt F) :=
  mulf (agg256 h e) (broadcastInDim S50000x256 ![0, 1] bcast_S50000x1_S50000x256_0_1 (broadcastInDim S50000x1 ![0] bcast_S50000_S50000x1_0 (invCnt e)))

/-- The hidden layer's bias as a row. -/
def biasRow256 (b : (⟨S256, .f32⟩ : BufTy).Contents (Elt F)) : (⟨S1x256, .f32⟩ : BufTy).Contents (Elt F) :=
  shapeCast _ b shapeCasts_S256_S1x256

/-- The output layer's bias as a row. -/
def biasRow128 (b : (⟨S128, .f32⟩ : BufTy).Contents (Elt F)) : (⟨S1x128, .f32⟩ : BufTy).Contents (Elt F) :=
  shapeCast _ b shapeCasts_S128_S1x128

end Cert.KernelIdeal.HostVal

end
-- ==== Proof.KHost.lean ====
/-
  What the two stretches of host operations leave in the buffers the two regions read. The first stretch cuts the
  edge array into its source and destination rows, counts each node's in-degree (clamped below by one) and takes
  its reciprocal, gathers the input features' source rows, adds them into their destination rows and scales each
  row by the reciprocal: the first region is entered with the neighbour mean of the input features, the hidden
  layer's bias as a row, and the arguments as launched. The second stretch does the same with the first region's
  result in place of the input features, reading the rows and the reciprocal the first stretch wrote: the second
  region is entered with the neighbour mean of the hidden features, the hidden features themselves, the output
  layer's bias as a row, and the arguments as launched.

  Each stretch is first read over arbitrary starting contents (one equation per buffer), then the equations are
  chained from the launch memory through the first region's exit contents.
-/
import proofs.«176526_j19155554140462_1_alg».proof.Proof.Gen.KernelIdeal.Frame
import proofs.«176526_j19155554140462_1_alg».proof.Proof.KHostDefs
import Idealize.ShloMosaic.Lib.StableHlo.Run
import Idealize.ShloMosaic.PureOps.Ideal

set_option maxRecDepth 16384
noncomputable section
namespace Cert.KernelIdeal.HostVal
open Cert.KernelIdeal Cert.KernelIdeal.Gen Idealize.ShloMosaic Idealize.ShloMosaic.TcCoe Idealize.SL.Sem Idealize.ShloMosaic.StableHlo
open Idealize.ShloMosaic.Pipeline (Dat)

/-! ## The first stretch of host operations, read over any starting contents -/

section Generic
variable (W : Valuation τ sig (Elt Ideal))

theorem after0_v25 :
    StableHlo.after hostOps0 W (Proc.devRef .tc main_v25) = biasRow256 (W (Proc.devRef .tc main_arg3)) := by
  after_results_simp <;> rfl

theorem after0_v1 :
    StableHlo.after hostOps0 W (Proc.devRef .tc main_v1) = srcRow (W (Proc.devRef .tc main_arg1)) := by
  after_results_simp <;> rfl

theorem after0_v3 :
    StableHlo.after hostOps0 W (Proc.devRef .tc main_v3) = dstRow (W (Proc.devRef .tc main_arg1)) := by
  after_results_simp <;> rfl

theorem after0_v11 :
    StableHlo.after hostOps0 W (Proc.devRef .tc main_v11) = invCnt (W (Proc.devRef .tc main_arg1)) := by
  after_results_simp <;> rfl

theorem after0_v24 :
    StableHlo.after hostOps0 W (Proc.devRef .tc main_v24)
      = mean128 (W (Proc.devRef .tc main_arg0)) (W (Proc.devRef .tc main_arg1)) := by
  after_results_simp <;> rfl

theorem after0_arg0 : StableHlo.after hostOps0 W (Proc.devRef .tc main_arg0) = W (Proc.devRef .tc main_arg0) := by
  after_results_simp
theorem after0_arg1 : StableHlo.after hostOps0 W (Proc.devRef .tc main_arg1) = W (Proc.devRef .tc main_arg1) := by
  after_results_simp
theorem after0_arg2 : StableHlo.after hostOps0 W (Proc.devRef .tc main_arg2) = W (Proc.devRef .tc main_arg2) := by
  after_results_simp
theorem after0_arg4 : StableHlo.after hostOps0 W (Proc.devRef .tc main_arg4) = W (Proc.devRef .tc main_arg4) := by
  after_results_simp
theorem after0_arg5 : StableHlo.after hostOps0 W (Proc.devRef .tc main_arg5) = W (Proc.devRef .tc main_arg5) := by
  after_results_simp
theorem after0_arg6 : StableHlo.after hostOps0 W (Proc.devRef .tc main_arg6) = W (Proc.devRef .tc main_arg6) := by
  after_results_simp
theorem after0_arg7 : StableHlo.after hostOps0 W (Proc.devRef .tc main_arg7) = W (Proc.devRef .tc main_arg7) := by
  after_results_simp

end Generic

/-! ## The second stretch, read over any starting contents

The second stretch reads the edge rows and the reciprocal in-degree out of buffers the first stretch wrote, so
its neighbour mean is stated over those rows as arguments; at the rows of one edge array it is `mean256`. -/

/-- The gather's start indices from the source row. -/
def srcIdxOf (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The neighbour mean of the hidden features from the source row, the destination row and the reciprocal in-degree. -/
def mean256Of (h : (⟨S50000x256, .f32⟩ : BufTy).Contents (Elt Ideal))
    (s d : (⟨S800000, .i32⟩ : BufTy).Contents (Elt Ideal)) (r : (⟨S50000, .f32⟩ : BufTy).Contents (Elt Ideal)) :
    (⟨S50000x256, .f32⟩ : BufTy).Contents (Elt Ideal) :=
  mulf
    (Host.scatterAdd (F := Ideal) scatter_S50000x256_S800000x1_S800000x256_1_0_0_1
      (broadcastInDim S50000x256 ![] bcast_S_S50000x256 (constant (F := Ideal) S_ .f32 0x00000000#32))
      (broadcastInDim S800000x1 ![0] bcast_S800000_S800000x1_0 d)
      (Host.gather gather_S50000x256_S800000x1_S800000x256_1_0_n_n_0_1_1256 h (srcIdxOf s)))
    (broadcastInDim S50000x256 ![0, 1] bcast_S50000x1_S50000x256_0_1 (broadcastInDim S50000x1 ![0] bcast_S50000_S50000x1_0 r))

theorem mean256Of_rows (h : (⟨S50000x256, .f32⟩ : BufTy).Contents (Elt Ideal)) (e : (⟨S2x800000, .i32⟩ : BufTy).Contents (Elt Ideal)) :
    mean256Of h (srcRow e) (dstRow e) (invCnt e) = mean256 h e := rfl

section Generic1
variable (W : Valuation τ sig (Elt Ideal))

theorem after1_v39 :
    StableHlo.after hostOps1 W (Proc.devRef .tc main_v39)
      = mean256Of (W (Proc.devRef .tc main_v26)) (W (Proc.devRef .tc main_v1)) (W (Proc.devRef .tc main_v3))
          (W (Proc.devRef .tc main_v11)) := by
  after_results_simp <;> rfl

theorem after1_v40 :
    StableHlo.after hostOps1 W (Proc.devRef .tc main_v40) = biasRow128 (W (Proc.devRef .tc main_arg6)) := by
  after_results_simp <;> rfl

theorem after1_v26 : StableHlo.after hostOps1 W (Proc.devRef .tc main_v26) = W (Proc.devRef .tc main_v26) := by
  after_results_simp
theorem after1_arg5 : StableHlo.after hostOps1 W (Proc.devRef .tc main_arg5) = W (Proc.devRef .tc main_arg5) := by
  after_results_simp
theorem after1_arg7 : StableHlo.after hostOps1 W (Proc.devRef .tc main_arg7) = W (Proc.devRef .tc main_arg7) := by
  after_results_simp

end Generic1

/-! ## The two region entries -/

variable (m : (ℓ : Loc nD τ sig) → Buf (Elt Ideal) ℓ) (ρ : Dev nD → PrngReg)

theorem V1_v24 (c : Dev nD) : V1 m ρ c main_v24 = mean128 (m ((c : Thread nD τ).loc main_arg0)) (m ((c : Thread nD τ).loc main_arg1)) := by
  show StableHlo.after hostOps0 (W0 m ρ c) (Proc.devRef .tc main_v24) = _
  rw [after0_v24]
theorem V1_arg0 (c : Dev nD) : V1 m ρ c main_arg0 = m ((c : Thread nD τ).loc main_arg0) := by
  show StableHlo.after hostOps0 (W0 m ρ c) (Proc.devRef .tc main_arg0) = _
  rw [after0_arg0]
theorem V1_arg2 (c : Dev nD) : V1 m ρ c main_arg2 = m ((c : Thread nD τ).loc main_arg2) := by
  show StableHlo.after hostOps0 (W0 m ρ c) (Proc.devRef .tc main_arg2) = _
  rw [after0_arg2]
theorem V1_v25 (c : Dev nD) : V1 m ρ c main_v25 = biasRow256 (m ((c : Thread nD τ).loc main_arg3)) := by
  show StableHlo.after hostOps0 (W0 m ρ c) (Proc.devRef .tc main_v25) = _
  rw [after0_v25]
theorem V1_arg4 (c : Dev nD) : V1 m ρ c main_arg4 = m ((c : Thread nD τ).loc main_arg4) := by
  show StableHlo.after hostOps0 (W0 m ρ c) (Proc.devRef .tc main_arg4) = _
  rw [after0_arg4]

/-- What the second stretch finds in the buffers the first stretch wrote and the first region left alone. -/
theorem W2_v1 (c : Dev nD) : W2 m ρ c (Proc.devRef .tc main_v1) = srcRow (m ((c : Thread nD τ).loc main_arg1)) := by
  rw [W2_of_ne m ρ c main_v1 (by decide)]
  show StableHlo.after hostOps0 (W0 m ρ c) (Proc.devRef .tc main_v1) = _
  rw [after0_v1]
theorem W2_v3 (c : Dev nD) : W2 m ρ c (Proc.devRef .tc main_v3) = dstRow (m ((c : Thread nD τ).loc main_arg1)) := by
  rw [W2_of_ne m ρ c main_v3 (by decide)]
  show StableHlo.after hostOps0 (W0 m ρ c) (Proc.devRef .tc main_v3) = _
  rw [after0_v3]
theorem W2_v11 (c : Dev nD) : W2 m ρ c (Proc.devRef .tc main_v11) = invCnt (m ((c : Thread nD τ).loc main_arg1)) := by
  rw [W2_of_ne m ρ c main_v11 (by decide)]
  show StableHlo.after hostOps0 (W0 m ρ c) (Proc.devRef .tc main_v11) = _
  rw [after0_v11]
/-- The first region's result array, as its write-backs leave it. -/
theorem W2_v26 (c : Dev nD) : W2 m ρ c (Proc.devRef .tc main_v26) = (dat0 (V1 m ρ) c).arrAt 5 cfg0.N :=
  W2_arr m ρ c 5
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  rw [after0_arg5]
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  rw [after0_arg6]
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  rw [after0_arg7]

theorem V3_v39 (c : Dev nD) : V3 m ρ c main_v39 = mean256 ((dat0 (V1 m ρ) c).arrAt 5 cfg0.N) (m ((c : Thread nD τ).loc main_arg1)) := by
  show StableHlo.after hostOps1 (W2 m ρ c) (Proc.devRef .tc main_v39) = _
  rw [after1_v39, W2_v26, W2_v1, W2_v3, W2_v11, mean256Of_rows]
theorem V3_v26 (c : Dev nD) : V3 m ρ c main_v26 = (dat0 (V1 m ρ) c).arrAt 5 cfg0.N := by
  show StableHlo.after hostOps1 (W2 m ρ c) (Proc.devRef .tc main_v26) = _
  rw [after1_v26, W2_v26]
theorem V3_arg5 (c : Dev nD) : V3 m ρ c main_arg5 = m ((c : Thread nD τ).loc main_arg5) := by
  show StableHlo.after hostOps1 (W2 m ρ c) (Proc.devRef .tc main_arg5) = _
  rw [after1_arg5, W2_arg5]
theorem V3_v40 (c : Dev nD) : V3 m ρ c main_v40 = biasRow128 (m ((c : Thread nD τ).loc main_arg6)) := by
  show StableHlo.after hostOps1 (W2 m ρ c) (Proc.devRef .tc main_v40) = _
  rw [after1_v40, W2_arg6]
theorem V3_arg7 (c : Dev nD) : V3 m ρ c main_arg7 = m ((c : Thread nD τ).loc main_arg7) := by
  show StableHlo.after hostOps1 (W2 m ρ c) (Proc.devRef .tc main_arg7) = _
  rw [after1_arg7, W2_arg7]

end Cert.KernelIdeal.HostVal
end
-- ==== Proof.KValue.lean ====
/-
  What the kernel's program leaves in its result array, as the specification's two layers of the argument arrays:
  the second region's final array is the output layer of the first region's final array (the hidden features) and
  of its neighbour mean, which the host operations between the regions compute; the first region's final array
  is the hidden layer of the input features and of their neighbour mean.
-/
import proofs.«176526_j19155554140462_1_alg».proof.Proof.Region0
import proofs.«176526_j19155554140462_1_alg».proof.Proof.Region1
import proofs.«176526_j19155554140462_1_alg».proof.Proof.KHost

set_option maxRecDepth 16384

noncomputable section

namespace Cert.KernelIdeal.RunVal

open Cert.KernelIdeal Cert.KernelIdeal.Gen Cert.KernelIdeal.HostVal
open Idealize.ShloMosaic Idealize.ShloMosaic.TcCoe Idealize.SL.Sem

variable (m : (ℓ : Loc nD τ sig) → Buf (Elt Ideal) ℓ) (ρ : Dev nD → PrngReg)

/-- The hidden features the first region leaves, of the launch contents of the arguments. -/
theorem hidden_value (c : Dev nD) :
    (dat0 (V1 m ρ) c).arrAt 5 cfg0.N
      = Cert.Sage.lin (N := 50000) (K := 128) (M := 256) Cert.Sage.relu
          (mean128 (m ((c : Thread nD τ).loc main_arg0)) (m ((c : Thread nD τ).loc main_arg1)))
          (m ((c : Thread nD τ).loc main_arg0)) (m ((c : Thread nD τ).loc main_arg2)) (m ((c : Thread nD τ).loc main_arg4))
          (biasRow256 (m ((c : Thread nD τ).loc main_arg3))) := by
  rw [RegionVal.final0 (V1 m ρ) c, V1_v24, V1_arg0, V1_arg2, V1_arg4, V1_v25]

/-- The result the second region leaves, of the hidden features. -/
theorem result_value (c : Dev nD) :
    (dat1 (V3 m ρ) c).arrAt 5 cfg1.N
      = Cert.Sage.lin (N := 50000) (K := 256) (M := 128) id
          (mean256 ((dat0 (V1 m ρ) c).arrAt 5 cfg0.N) (m ((c : Thread nD τ).loc main_arg1)))
          ((dat0 (V1 m ρ) c).arrAt 5 cfg0.N) (m ((c : Thread nD τ).loc main_arg5)) (m ((c : Thread nD τ).loc main_arg7))
          (biasRow128 (m ((c : Thread nD τ).loc main_arg6))) := by
  rw [RegionVal.final1 (V3 m ρ) c, V3_v39, V3_v26, V3_arg5, V3_arg7, V3_v40]

end Cert.KernelIdeal.RunVal

end
-- ==== Proof.Bridge.lean ====
/-
  The reference's stages are the kernel's host functions and the layer of the specification.

  Both programs read the same edge lists, count the same in-degrees and aggregate the same rows; they differ in
  how the neighbour mean is scaled (a product with the reciprocal of the clamped in-degree against a quotient by
  it: equal because the clamped in-degree is at least one, hence not zero) and in the order the bias and the
  node's own term are added (equal because addition of extended reals is commutative and associative).
-/
import proofs.«176526_j19155554140462_1_alg».proof.Proof.Gen.ReferenceIdeal.Read
import proofs.«176526_j19155554140462_1_alg».proof.Proof.KHostDefs
import proofs.«176526_j19155554140462_1_alg».proof.Proof.Spec
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal Cert.ReferenceIdeal.Gen Cert.ReferenceIdeal.Read
open Cert.KernelIdeal.HostVal

/-! ## The host stages the two programs share -/

variable (e : (⟨S2x800000, .i32⟩ : BufTy).Contents (Elt Ideal))

theorem srcRow_eq : srcRow (F := Ideal) e = val_main_v1 (F := Ideal) e := rfl
theorem dstRow_eq : dstRow (F := Ideal) e = val_main_v3 (F := Ideal) e := rfl
theorem srcIdx_eq : srcIdx (F := Ideal) e = val_main_v9 (F := Ideal) e := rfl
theorem dstIdx_eq : dstIdx (F := Ideal) e = val_main_v12 (F := Ideal) e := rfl
theorem cnt_eq : cnt (F := Ideal) e = val_main_v19 (F := Ideal) e := rfl
theorem cnt_eq' : cnt (F := Ideal) e = val_main_v45 (F := Ideal) e := rfl
theorem agg128_eq (x : (⟨S50000x128, .f32⟩ : BufTy).Contents (Elt Ideal)) :
    agg128 (F := Ideal) x e = val_main_v13 (F := Ideal) x e := rfl

/-! ## The neighbour mean: a product with the reciprocal against a quotient -/

/-- A per-node value broadcast along 128 features, read at an entry: the node's value. -/
theorem rows128_apply (y : (⟨S50000, .f32⟩ : BufTy).Contents (Elt Ideal)) (i : S50000x128.Idx) :
    broadcastInDim S50000x128 ![0, 1] bcast_S50000x1_S50000x128_0_1 (broadcastInDim S50000x1 ![0] bcast_S50000_S50000x1_0 y) i
      = y (idx_main_v20 (idx_main_v21 i)) := by
  generalize hz : broadcastInDim S50000x1 ![0] bcast_S50000_S50000x1_0 y = z
  refine (broadcastInDim_apply _ bcast_S50000x1_S50000x128_0_1 z i (idx_main_v21 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  subst hz
  exact broadcastInDim_apply _ bcast_S50000_S50000x1_0 y (idx_main_v21 i) (idx_main_v20 (idx_main_v21 i)) (fun a => match a with
    | ⟨0, _⟩ => by show (i 0).val = if (50000 : Nat) = 1 then 0 else (i 0).val; rw [if_neg (by decide)])

/-- The host quotient at an entry. -/
theorem hdiv_apply {s : Shape} (a b : FVec Ideal s .f32) (n : s.Idx) : Host.divf (F := Ideal) a b n = Ideal.div (a n) (b n) := rfl

/-- The splat of the word of one over the nodes, at a node. -/
theorem ones_apply (n : S50000.Idx) :
    broadcastInDim S50000 ![] bcast_S_S50000 (constant (F := Ideal) S_ .f32 0x3F800000#32) n = Ideal.ofBits .f32 0x3F800000#32 := rfl

/-- The reciprocal of the clamped in-degree as the quotient of the splat of one by the clamped in-degree. -/
theorem invCnt_unfold : invCnt (F := Ideal) e
    = Host.divf (broadcastInDim S50000 ![] bcast_S_S50000 (constant (F := Ideal) S_ .f32 0x3F800000#32)) (val_main_v19 (F := Ideal) e) := rfl

/-- The clamped in-degree at a node is a maximum with one. -/
theorem cnt_apply (n : S50000.Idx) :
    val_main_v19 (F := Ideal) e n = max (val_main_v17 (F := Ideal) e n) (Ideal.ofBits .f32 0x3F800000#32) := by
  rw [val_main_v19_apply, val_main_v18_apply, val_main_cst_3_apply]
  rfl

/-- Scaling an aggregated entry by the reciprocal of the clamped in-degree is dividing it by the clamped
    in-degree. -/
theorem scale_eq (a s : EReal) :
    a * Ideal.div (Ideal.ofBits .f32 0x3F800000#32) (max s (Ideal.ofBits .f32 0x3F800000#32))
      = Ideal.div a (max s (Ideal.ofBits .f32 0x3F800000#32)) := by
  have h := Cert.Sage.mul_one_div a _ (Cert.Sage.max_one_ne_zero s)
  rw [Cert.Sage.ofBits_one] at h ⊢
  exact h

/-- The kernel's neighbour mean of the input features, its stages named as the reference names them. -/
theorem mean128_unfold (x : (⟨S50000x128, .f32⟩ : BufTy).Contents (Elt Ideal)) :
    mean128 (F := Ideal) x e = (mulf (val_main_v13 (F := Ideal) x e)
      (broadcastInDim S50000x128 ![0, 1] bcast_S50000x1_S50000x128_0_1 (broadcastInDim S50000x1 ![0] bcast_S50000_S50000x1_0 (invCnt (F := Ideal) e))) : FVec Ideal S50000x128 .f32) := rfl

/-- The kernel's neighbour mean of the input features is the reference's. -/
theorem mean128_eq (x : (⟨S50000x128, .f32⟩ : BufTy).Contents (Elt Ideal)) :
    mean128 (F := Ideal) x e = val_main_v22 (F := Ideal) x e := by
  funext i
  rw [mean128_unfold, val_main_v22_apply, val_main_v21_apply, val_main_v20_apply, cnt_apply, mulf_apply, rows128_apply,
    invCnt_unfold, hdiv_apply, ones_apply, cnt_apply]
  exact scale_eq _ _

/-! ## The hidden layer -/

/-- The bias as a row, read at a column: the bias's entry. -/
theorem biasRow256_apply (b : (⟨S256, .f32⟩ : BufTy).Contents (Elt Ideal)) (q : Fin 256) :
    biasRow256 (F := Ideal) b (ix2 0 q) = b (ix1 q) := by
  unfold biasRow256
  refine shapeCast_apply b _ (ix2 0 q) (ix1 q) ?_
  rw [Shape.rowMajor_val_one, Shape.rowMajor_val_two]
  show q.val = 0 * 256 + q.val
  omega

variable (x0 : (⟨S50000x128, .f32⟩ : BufTy).Contents (Elt Ideal)) (w2 : (⟨S128x256, .f32⟩ : BufTy).Contents (Elt Ideal))
  (b3 : (⟨S256, .f32⟩ : BufTy).Contents (Elt Ideal)) (w4 : (⟨S128x256, .f32⟩ : BufTy).Contents (Elt Ideal))

/-- The specification's hidden layer, at the kernel's neighbour mean and bias row, is the reference's hidden
    stage: entry by entry the two sums of products agree term by term, the bias is the same entry, and the three
    summands are added in another order. -/
theorem hidden_eq :
    Cert.Sage.lin (N := 50000) (K := 128) (M := 256) Cert.Sage.relu (mean128 (F := Ideal) x0 e) x0 w2 w4 (biasRow256 (F := Ideal) b3)
      = val_main_v29 (F := Ideal) x0 e w2 b3 w4 := by
  rw [mean128_eq]
  funext i
  obtain ⟨r, q, rfl⟩ : ∃ (r : Fin 50000) (q : Fin 256), i = ix2 r q := ⟨i 0, i 1, eq_ix2 i⟩
  rw [Cert.Sage.lin_ix2, val_main_v29_apply, val_main_v28_apply, val_main_v26_apply, val_main_v23_apply, val_main_v25_apply,
    val_main_v24_apply, val_main_v27_apply, val_main_call0_v0_apply, val_main_call0_cst_apply, biasRow256_apply]
  have hl : ∀ k : Fin 128, lidx_main_v23 (ix2 r q) k = ix2 r k := fun k => funext fun a => Fin.ext (by
    match a with
    | ⟨0, _⟩ => rfl
    | ⟨1, _⟩ => rfl)
  have hr : ∀ k : Fin 128, ridx_main_v23 (ix2 r q) k = ix2 k q := fun k => funext fun a => Fin.ext (by
    match a with
    | ⟨0, _⟩ => rfl
    | ⟨1, _⟩ => rfl)
  have hl' : ∀ k : Fin 128, lidx_main_v27 (ix2 r q) k = ix2 r k := fun k => funext fun a => Fin.ext (by
    match a with
    | ⟨0, _⟩ => rfl
    | ⟨1, _⟩ => rfl)
  have hr' : ∀ k : Fin 128, ridx_main_v27 (ix2 r q) k = ix2 k q := fun k => funext fun a => Fin.ext (by
    match a with
    | ⟨0, _⟩ => rfl
    | ⟨1, _⟩ => rfl)
  have hb : idx_main_v24 (idx_main_v25 (ix2 r q)) = ix1 q := funext fun a => Fin.ext (by
    match a with
    | ⟨0, _⟩ => rfl)
  simp only [hl, hr, hl', hr', hb]
  unfold Cert.Sage.relu
  rw [add_right_comm]
  rfl

/-! ## The output layer -/

/-- A per-node value broadcast along 256 features, read at an entry: the node's value. -/
theorem rows256_apply (y : (⟨S50000, .f32⟩ : BufTy).Contents (Elt Ideal)) (i : S50000x256.Idx) :
    broadcastInDim S50000x256 ![0, 1] bcast_S50000x1_S50000x256_0_1 (broadcastInDim S50000x1 ![0] bcast_S50000_S50000x1_0 y) i
      = y (idx_main_v46 (idx_main_v47 i)) := by
  generalize hz : broadcastInDim S50000x1 ![0] bcast_S50000_S50000x1_0 y = z
  refine (broadcastInDim_apply _ bcast_S50000x1_S50000x256_0_1 z i (idx_main_v47 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  subst hz
  exact broadcastInDim_apply _ bcast_S50000_S50000x1_0 y (idx_main_v47 i) (idx_main_v46 (idx_main_v47 i)) (fun a => match a with
    | ⟨0, _⟩ => by show (i 0).val = if (50000 : Nat) = 1 then 0 else (i 0).val; rw [if_neg (by decide)])

/-- The second count of the in-degrees is the first. -/
theorem cnt_second : val_main_v45 (F := Ideal) e = val_main_v19 (F := Ideal) e := rfl

/-- The bias as a row, read at a column: the bias's entry. -/
theorem biasRow128_apply (b : (⟨S128, .f32⟩ : BufTy).Contents (Elt Ideal)) (q : Fin 128) :
    biasRow128 (F := Ideal) b (ix2 0 q) = b (ix1 q) := by
  unfold biasRow128
  refine shapeCast_apply b _ (ix2 0 q) (ix1 q) ?_
  rw [Shape.rowMajor_val_one, Shape.rowMajor_val_two]
  show q.val = 0 * 128 + q.val
  omega

/-- The aggregation of the hidden features is the reference's. -/
theorem agg256_eq : agg256 (F := Ideal) (val_main_v29 (F := Ideal) x0 e w2 b3 w4) e = val_main_v39 (F := Ideal) x0 e w2 b3 w4 := rfl

/-- The kernel's neighbour mean of the hidden features, its stages named as the reference names them. -/
theorem mean256_unfold (h : (⟨S50000x256, .f32⟩ : BufTy).Contents (Elt Ideal)) :
    mean256 (F := Ideal) h e = (mulf (agg256 (F := Ideal) h e)
      (broadcastInDim S50000x256 ![0, 1] bcast_S50000x1_S50000x256_0_1 (broadcastInDim S50000x1 ![0] bcast_S50000_S50000x1_0 (invCnt (F := Ideal) e))) : FVec Ideal S50000x256 .f32) := rfl

/-- The kernel's neighbour mean of the hidden features is the reference's. -/
theorem mean256_eq :
    mean256 (F := Ideal) (val_main_v29 (F := Ideal) x0 e w2 b3 w4) e = val_main_v48 (F := Ideal) x0 e w2 b3 w4 := by
  funext i
  rw [mean256_unfold, agg256_eq, val_main_v48_apply, val_main_v47_apply, val_main_v46_apply, cnt_second, cnt_apply, mulf_apply,
    rows256_apply, invCnt_unfold, hdiv_apply, ones_apply, cnt_apply]
  exact scale_eq _ _

variable (w5 : (⟨S256x128, .f32⟩ : BufTy).Contents (Elt Ideal)) (b6 : (⟨S128, .f32⟩ : BufTy).Contents (Elt Ideal))
  (w7 : (⟨S256x128, .f32⟩ : BufTy).Contents (Elt Ideal))

/-- The specification's output layer, at the kernel's neighbour mean of the hidden features and bias row, is the
    reference's result. -/
theorem out_eq :
    Cert.Sage.lin (N := 50000) (K := 256) (M := 128) id (mean256 (F := Ideal) (val_main_v29 (F := Ideal) x0 e w2 b3 w4) e)
        (val_main_v29 (F := Ideal) x0 e w2 b3 w4) w5 w7 (biasRow128 (F := Ideal) b6)
      = val_main_v54 (F := Ideal) x0 e w2 b3 w4 w5 b6 w7 := by
  rw [mean256_eq]
  funext i
  obtain ⟨r, q, rfl⟩ : ∃ (r : Fin 50000) (q : Fin 128), i = ix2 r q := ⟨i 0, i 1, eq_ix2 i⟩
  rw [Cert.Sage.lin_ix2, val_main_v54_apply, val_main_v52_apply, val_main_v49_apply, val_main_v51_apply, val_main_v50_apply,
    val_main_v53_apply, biasRow128_apply]
  have hl : ∀ k : Fin 256, lidx_main_v49 (ix2 r q) k = ix2 r k := fun k => funext fun a => Fin.ext (by
    match a with
    | ⟨0, _⟩ => rfl
    | ⟨1, _⟩ => rfl)
  have hr : ∀ k : Fin 256, ridx_main_v49 (ix2 r q) k = ix2 k q := fun k => funext fun a => Fin.ext (by
    match a with
    | ⟨0, _⟩ => rfl
    | ⟨1, _⟩ => rfl)
  have hl' : ∀ k : Fin 256, lidx_main_v53 (ix2 r q) k = ix2 r k := fun k => funext fun a => Fin.ext (by
    match a with
    | ⟨0, _⟩ => rfl
    | ⟨1, _⟩ => rfl)
  have hr' : ∀ k : Fin 256, ridx_main_v53 (ix2 r q) k = ix2 k q := fun k => funext fun a => Fin.ext (by
    match a with
    | ⟨0, _⟩ => rfl
    | ⟨1, _⟩ => rfl)
  have hb : idx_main_v50 (idx_main_v51 (ix2 r q)) = ix1 q := funext fun a => Fin.ext (by
    match a with
    | ⟨0, _⟩ => rfl)
  simp only [hl, hr, hl', hr', hb]
  rw [add_right_comm, id_eq]
  refine congrArg₂ (fun a b : EReal => a + b) (congrArg₂ (fun a b : EReal => a + b) ?_ rfl) ?_
  · exact Finset.sum_congr rfl fun k _ => rfl
  · exact Finset.sum_congr rfl fun k _ => rfl

end Cert.Bridge

end
-- ==== Proof.lean ====
/-
  A two-layer mean-aggregation graph convolution: the kernel's program against the reference, on the extended
  reals.

  Both programs gather each edge's source row, add it into the edge's destination row, and scale each node's
  aggregated row by its in-degree clamped below by one; each layer then adds the aggregated mean through one
  weight matrix, the node's own row through another, and a bias, with a rectifier after the first layer. The
  kernel's program computes each layer's combine in a pipelined region over blocks of 2000 nodes (whose final
  array is that combine of the whole arrays, block by block), multiplies by the reciprocal of the clamped
  in-degree where the reference divides by it, and adds the bias last where the reference adds it second. The
  reciprocal and the quotient agree because the clamped in-degree is at least one, hence not zero; the two orders
  of addition agree because addition of extended reals is commutative and associative. No finiteness of the
  inputs is used.
-/
import proofs.«176526_j19155554140462_1_alg».proof.Defs
import proofs.«176526_j19155554140462_1_alg».proof.Proof.Gen.Kernel
import proofs.«176526_j19155554140462_1_alg».proof.Proof.Gen.Kernel.Frame
import proofs.«176526_j19155554140462_1_alg».proof.Proof.Gen.KernelIdeal
import proofs.«176526_j19155554140462_1_alg».proof.Proof.Gen.KernelIdeal.Frame
import proofs.«176526_j19155554140462_1_alg».proof.Proof.Gen.ReferenceIdeal
import proofs.«176526_j19155554140462_1_alg».proof.Proof.Gen.ReferenceIdeal.Run
import proofs.«176526_j19155554140462_1_alg».proof.Proof.Gen.ReferenceIdeal.Read
import proofs.«176526_j19155554140462_1_alg».proof.Proof.Gen.Pre_finite_inputs
import proofs.«176526_j19155554140462_1_alg».proof.Proof.KRun
import proofs.«176526_j19155554140462_1_alg».proof.Proof.KValue
import proofs.«176526_j19155554140462_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel's program runs and keeps its arguments, at the word level. -/
theorem frame_kernel : Cert.frame_Kernel := fun m ρ _ => Cert.Kernel.Gen.frame m ρ

/-- The idealized kernel's program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The array the kernel's program leaves as its result is the reference's last stage of the same arguments:
    the second region's final array is the output layer of the first region's, which is the hidden layer; the
    hidden layer is the reference's hidden stage, and the output layer of it the reference's result. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Gen.dat1 (Cert.KernelIdeal.Gen.V3 m ρ) c).arrAt 5 Cert.KernelIdeal.cfg1.N
      = Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.KernelIdeal.RunVal.result_value, Cert.KernelIdeal.RunVal.hidden_value, Cert.Bridge.hidden_eq]
  exact Cert.Bridge.out_eq _ _ _ _ _ _ _ _

/-- From memories agreeing on the arguments both idealized programs run, keep their arguments, and end with the
    same result array: the reference's last stage of the arguments. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_value m ρ c), (h c).2⟩)
      (Cert.KernelIdeal.RunVal.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
